-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x4096x2048 : Shape := ⟨3, ![8, 4096, 2048]⟩
abbrev S8x2048x4096 : Shape := ⟨3, ![8, 2048, 4096]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x2048x4096 : S_.BroadcastsInDim S8x2048x4096 (![] : Fin 0 → Fin S8x2048x4096.rank)
  reducesTo_S8x2048x4096_S_d0_1_2 : S8x2048x4096.ReducesTo [0, 1, 2] S_

variable [Facts]

def fn {F : FTy → Type} [FloatOps F] (main_arg0 : FVec F S16384x2048 .f32) (main_arg1 : FVec F S8x4096x2048 .f32) (main_arg2 : FVec F S8x2048x4096 .f32) (main_arg3 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  main_v13
-- ==== Kernel.lean ====
abbrev S16384x2048 : Shape := ⟨2, ![16384, 2048]⟩
abbrev S8x4096x2048 : Shape := ⟨3, ![8, 4096, 2048]⟩
abbrev S8x2048x4096 : Shape := ⟨3, ![8, 2048, 4096]⟩
abbrev S8 : Shape := ⟨1, ![8]⟩
abbrev S8x2048x2048 : Shape := ⟨3, ![8, 2048, 2048]⟩
abbrev S1x512x2048 : Shape := ⟨3, ![1, 512, 2048]⟩
abbrev S1x1024x2048 : Shape := ⟨3, ![1, 1024, 2048]⟩
abbrev S1x2048x1024 : Shape := ⟨3, ![1, 2048, 1024]⟩
abbrev S512x2048 : Shape := ⟨2, ![512, 2048]⟩
abbrev S1024x2048 : Shape := ⟨2, ![1024, 2048]⟩
abbrev S512x1024 : Shape := ⟨2, ![512, 1024]⟩
abbrev S2048x1024 : Shape := ⟨2, ![2048, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S8x4096x2048, .f32⟩
  | .hbm, ⟨2, _⟩ => ⟨S8x2048x4096, .f32⟩
  | .hbm, ⟨3, _⟩ => ⟨S8, .i32⟩
  | .hbm, ⟨4, _⟩ => ⟨S8x2048x2048, .f32⟩
  | .hbm, ⟨5, _⟩ => ⟨S8x2048x2048, .bf16⟩
  | .hbm, ⟨6, _⟩ => ⟨S8x4096x2048, .bf16⟩
  | .hbm, ⟨7, _⟩ => ⟨S8x2048x4096, .bf16⟩
  | .hbm, ⟨8, _⟩ => ⟨S8x2048x2048, .f32⟩
  | .hbm, ⟨9, _⟩ => ⟨S16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x512x2048, .f32⟩
  | .local _ .vmem, ⟨7, _⟩ => ⟨S1x512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v30 : BitVec 1 := Scalar.cmpi .eq arg2 c3_i32
  let v31 : BitVec 32 := Scalar.extui v30
  let c0_i32_18 : BitVec 32 := 0#32
  let v32 : BitVec 1 := Scalar.cmpi .ne v31 c0_i32_18
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S16384x2048_S8x2048x2048 : S16384x2048.ShapeCasts S8x2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S512x2048_S1x512x2048 : S512x2048.ShapeCasts S1x512x2048
  shapeCasts_S8x2048x2048_S16384x2048 : S8x2048x2048.ShapeCasts S16384x2048
  dot_S512x2048_S1024x2048_S512x1024_1_1_0_0_n_n_wf : DotDims.WF S512x2048 S1024x2048 S512x1024 [1] [1] [0] [0] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .bf16 = 32 ∨ (Rect.block (s := S8x4096x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x4096.size a
  hwx0_2 : ∀ i : grid0.Coords, EltTy.bits .bf16 = 32 ∨ (Rect.block (s := S8x2048x4096) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x4096x2048 : Shape := ⟨3, ![8, 4096, 2048]⟩
abbrev S8x2048x4096 : Shape := ⟨3, ![8, 2048, 4096]⟩
abbrev S8 : Shape := ⟨1, ![8]⟩
abbrev S8x2048x2048 : Shape := ⟨3, ![8, 2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x4096x2048, .f32⟩
  | .hbm, ⟨2, _⟩ => ⟨S8x2048x4096, .f32⟩
  | .hbm, ⟨3, _⟩ => ⟨S8, .i32⟩
  | .hbm, ⟨4, _⟩ => ⟨S8x2048x2048, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S_, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S8x2048x2048, .f32⟩
  | .hbm, ⟨24, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S_S8x2048x4096 : S_.BroadcastsInDim S8x2048x4096 (![] : Fin 0 → Fin S8x2048x4096.rank)
  shapeCasts_S8x2048x2048_S16384x2048 : S8x2048x2048.ShapeCasts S16384x2048
  dot_S8x2048x2048_S8x4096x2048_S8x2048x4096_2_2_1_1_0_0_wf : DotDims.WF S8x2048x2048 S8x4096x2048 S8x2048x4096 [2] [2] [1] [1] [0] [0]
  dot_S8x2048x4096_S8x2048x4096_S8x2048x2048_2_2_1_1_0_0_wf : DotDims.WF S8x2048x4096 S8x2048x4096 S8x2048x2048 [2] [2] [1] [1] [0] [0]

variable [Facts₀]

def dot_S8x2048x2048_S8x4096x2048_S8x2048x4096_2_2_1_1_0_0 : DotDims S8x2048x2048 S8x4096x2048 S8x2048x4096 where
  lhsContracting := [2]
  rhsContracting := [2]
  lhsNonContracting := [1]
  rhsNonContracting := [1]
  lhsBatch := [0]
  rhsBatch := [0]
  wf := dot_S8x2048x2048_S8x4096x2048_S8x2048x4096_2_2_1_1_0_0_wf
def dot_S8x2048x4096_S8x2048x4096_S8x2048x2048_2_2_1_1_0_0 : DotDims S8x2048x4096 S8x2048x4096 S8x2048x2048 where
  lhsContracting := [2]
  rhsContracting := [2]
  lhsNonContracting := [1]
  rhsNonContracting := [1]
  lhsBatch := [0]
  rhsBatch := [0]
  wf := dot_S8x2048x4096_S8x2048x4096_S8x2048x2048_2_2_1_1_0_0_wf

class Facts : Prop extends Facts₀ where

variable [Facts]
-- ==== Proof.FfnPieces.lean ====
/-
  What one call of the kernel body leaves behind, as values.

  The body keeps a running total in a scratch tile `acc : [512, 2048]`. Writing `step x w1 w2 a` for
  `a + gelu (x · w1ᵀ) · w2ᵀ` (one block of hidden units' share added to `a`), a call leaves in the scratch tile

    * at the first hidden block of a token tile:  `step x w1 w2 0`  (the tile is zeroed, read back, and added to),
    * at every later hidden block:                `step x w1 w2 acc` of what the call before left,

  and at the last hidden block it also copies the new total into the output tile. Each statement below says that
  the stores the body's run recorded — every one of them covers its whole tile — read back as exactly that
  value; they hold for any float values.
-/
import proofs.«142058_j46712064311452_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.FfnPieces

open Cert.KernelIdeal Cert.KernelIdeal.Gen

variable {F : FTy → Type} [FloatOps F]

/-- Zero offsets, however many axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First hidden block: the scratch tile is stored as zero, loaded back, and stored again with this block's share
    added; the second store covers the tile, so the tile holds the share added to zero. -/
theorem scratch_first (c : Dev nD) (i : grid0.Coords) (a3 : Memref sig .tc .vmem S1x512x2048 .bf16) (h3 : a3.IsWhole) (a4 : Memref sig .tc .vmem S1x1024x2048 .bf16) (h4 : a4.IsWhole) (a5 : Memref sig .tc .vmem S1x2048x1024 .bf16) (h5 : a5.IsWhole) (a6 : Memref sig .tc .vmem S1x512x2048 .f32) (h6 : a6.IsWhole) (a7 : Memref sig .tc .vmem S512x2048 .f32) (h7 : a7.IsWhole) (hc0 : cond0_0 i) (hc1 : ¬cond0_1 i) (x0 : Vec F S1x512x2048 .bf16) (x1 : Vec F S1x1024x2048 .bf16) (x2 : Vec F S1x2048x1024 .bf16) :
    sout0_A_0 c i a3 h3 a4 h4 a5 h5 a6 h6 a7 h7 hc0 hc1 x0 x1 x2 = k0_pay3 x0 x1 x2 k0_pay2 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x2048) hz2, View.readCov_unit_zero (S := S512x2048) _ hz2]
  simp only [View.readAt_eq_ld, h3.read_unread, h4.read_unread, h5.read_unread, h7.read_unread, View.ld_unit_zero (S := S1x512x2048) hz3, View.ld_unit_zero (S := S1x1024x2048) hz3, View.ld_unit_zero (S := S1x2048x1024) hz3, View.ld_unit_zero (S := S512x2048) hz2]

/-- A middle hidden block: one covering store of this block's share added to what the tile held. -/
theorem scratch_middle (c : Dev nD) (i : grid0.Coords) (a3 : Memref sig .tc .vmem S1x512x2048 .bf16) (h3 : a3.IsWhole) (a4 : Memref sig .tc .vmem S1x1024x2048 .bf16) (h4 : a4.IsWhole) (a5 : Memref sig .tc .vmem S1x2048x1024 .bf16) (h5 : a5.IsWhole) (a6 : Memref sig .tc .vmem S1x512x2048 .f32) (h6 : a6.IsWhole) (a7 : Memref sig .tc .vmem S512x2048 .f32) (h7 : a7.IsWhole) (hc0 : ¬cond0_0 i) (hc1 : ¬cond0_1 i) (x0 : Vec F S1x512x2048 .bf16) (x1 : Vec F S1x1024x2048 .bf16) (x2 : Vec F S1x2048x1024 .bf16) (xs0 : Vec F S512x2048 .f32) :
    sout0_B_0 c i a3 h3 a4 h4 a5 h5 a6 h6 a7 h7 hc0 hc1 x0 x1 x2 xs0 = k0_pay3 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero (S := S512x2048) hz2]
  simp only [View.readAt_eq_ld, h3.read_unread, h4.read_unread, h5.read_unread, h7.read_unread, View.ld_unit_zero (S := S1x512x2048) hz3, View.ld_unit_zero (S := S1x1024x2048) hz3, View.ld_unit_zero (S := S1x2048x1024) hz3, View.ld_unit_zero (S := S512x2048) hz2]

/-- The last hidden block leaves the same in the scratch tile … -/
theorem scratch_last (c : Dev nD) (i : grid0.Coords) (a3 : Memref sig .tc .vmem S1x512x2048 .bf16) (h3 : a3.IsWhole) (a4 : Memref sig .tc .vmem S1x1024x2048 .bf16) (h4 : a4.IsWhole) (a5 : Memref sig .tc .vmem S1x2048x1024 .bf16) (h5 : a5.IsWhole) (a6 : Memref sig .tc .vmem S1x512x2048 .f32) (h6 : a6.IsWhole) (a7 : Memref sig .tc .vmem S512x2048 .f32) (h7 : a7.IsWhole) (hc0 : ¬cond0_0 i) (hc1 : cond0_1 i) (x0 : Vec F S1x512x2048 .bf16) (x1 : Vec F S1x1024x2048 .bf16) (x2 : Vec F S1x2048x1024 .bf16) (xs0 : Vec F S512x2048 .f32) :
    sout0_C_0 c i a3 h3 a4 h4 a5 h5 a6 h6 a7 h7 hc0 hc1 x0 x1 x2 xs0 = k0_pay3 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S512x2048) hz2]
  simp only [View.readAt_eq_ld, h3.read_unread, h4.read_unread, h5.read_unread, h7.read_unread, View.ld_unit_zero (S := S1x512x2048) hz3, View.ld_unit_zero (S := S1x1024x2048) hz3, View.ld_unit_zero (S := S1x2048x1024) hz3, View.ld_unit_zero (S := S512x2048) hz2]

/-- … and copies the new total, with a unit axis in front, into the output tile. -/
theorem out_last (c : Dev nD) (i : grid0.Coords) (a3 : Memref sig .tc .vmem S1x512x2048 .bf16) (h3 : a3.IsWhole) (a4 : Memref sig .tc .vmem S1x1024x2048 .bf16) (h4 : a4.IsWhole) (a5 : Memref sig .tc .vmem S1x2048x1024 .bf16) (h5 : a5.IsWhole) (a6 : Memref sig .tc .vmem S1x512x2048 .f32) (h6 : a6.IsWhole) (a7 : Memref sig .tc .vmem S512x2048 .f32) (h7 : a7.IsWhole) (hc0 : ¬cond0_0 i) (hc1 : cond0_1 i) (x0 : Vec F S1x512x2048 .bf16) (x1 : Vec F S1x1024x2048 .bf16) (x2 : Vec F S1x2048x1024 .bf16) (xs0 : Vec F S512x2048 .f32) :
    out0_C_3 c i a3 h3 a4 h4 a5 h5 a6 h6 a7 h7 hc0 hc1 x0 x1 x2 xs0 = k0_pay1 (k0_pay3 x0 x1 x2 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S1x512x2048) hz3, View.readCov_unit_zero (S := S512x2048) _ hz2]
  simp only [View.readAt_eq_ld, h3.read_unread, h4.read_unread, h5.read_unread, h7.read_unread, View.ld_unit_zero (S := S1x512x2048) hz3, View.ld_unit_zero (S := S1x1024x2048) hz3, View.ld_unit_zero (S := S1x2048x1024) hz3, View.ld_unit_zero (S := S512x2048) hz2]

end Cert.KernelIdeal.FfnPieces

end
-- ==== Proof.FfnSpec.lean ====
/-
  The expert feed-forward layer as mathematics on the extended reals, with no program in sight.

  Tokens come grouped by expert: `X (e, c, k)` is feature `k` of token `c` of expert `e`. Expert `e` has a first
  weight matrix `A (e, f, k)` and a second one `B (e, h, f)`. The layer is

      out (e, c, h) = ∑ f, gelu (∑ k, X (e, c, k) · A (e, f, k)) · B (e, h, f)

  with the tanh form of GELU. The hidden axis `f` has 4096 = 4 · 1024 entries; summing it block by block, starting from
  zero and adding one block's partial sum after the other, gives the same extended real, because addition of extended
  reals is commutative and associative (no finiteness is needed: nothing is cancelled and nothing is distributed).
-/
import Idealize.ShloMosaic.PureOps.Ideal
import Idealize.ShloMosaic.Lib.ValueIdx
import Idealize.ShloMosaic.Lib.Pipeline.Value

noncomputable section

open scoped BigOperators

namespace Cert.Ffn

open Idealize.ShloMosaic Idealize.ShloMosaic.ValueIdx

/-- The tanh form of GELU at an extended real `z`: `z · (½ · (1 + tanh (c₁ · (z + c₂ · z³))))`, the cube associated as
    `z · (z · z)`. The four constants are kept as the binary words in which both programs spell them (½, 1, the
    single-precision neighbours of √(2/π) and of 0.044715): the same word on both sides is never evaluated. -/
def gelu (z : EReal) : EReal :=
  z * (Ideal.ofBits .f32 0x3F000000#32 * (Ideal.ofBits .f32 0x3F800000#32 +
    Ideal.tanh (Ideal.ofBits .f32 0x3F4C422A#32 * (z + Ideal.ofBits .f32 0x3D372713#32 * (z * (z * z))))))

/-- The cube may as well be associated as `(z · z) · z`: multiplication of extended reals is commutative. -/
theorem gelu_cube_left (z : EReal) :
    z * (Ideal.ofBits .f32 0x3F000000#32 * (Ideal.ofBits .f32 0x3F800000#32 +
      Ideal.tanh (Ideal.ofBits .f32 0x3F4C422A#32 * (z + Ideal.ofBits .f32 0x3D372713#32 * (z * z * z))))) = gelu z := by
  unfold gelu; rw [mul_comm (z * z) z]

/-- The three arrays' index sets. -/
abbrev TokIdx := (⟨3, ![8, 2048, 2048]⟩ : Shape).Idx
abbrev W1Idx := (⟨3, ![8, 4096, 2048]⟩ : Shape).Idx
abbrev W2Idx := (⟨3, ![8, 2048, 4096]⟩ : Shape).Idx

/-- The hidden pre-activation of token `c` of expert `e` at hidden unit `f`: the inner product of the token with row `f` of
    the expert's first matrix. -/
def hid (X : TokIdx → EReal) (A : W1Idx → EReal) (e : Fin 8) (c : Fin 2048) (f : Fin 4096) : EReal :=
  ∑ k : Fin 2048, X (ix3 e c k) * A (ix3 e f k)

/-- One summand of the second product: the activation at hidden unit `f` times the second matrix's entry `(h, f)`. -/
def term (X : TokIdx → EReal) (A : W1Idx → EReal) (B : W2Idx → EReal) (e : Fin 8) (c h : Fin 2048) (f : Fin 4096) : EReal :=
  gelu (hid X A e c f) * B (ix3 e h f)

/-- THE LAYER, index by index. -/
def ffn (X : TokIdx → EReal) (A : W1Idx → EReal) (B : W2Idx → EReal) : TokIdx → EReal :=
  fun j => ∑ f : Fin 4096, term X A B (j 0) (j 1) (j 2) f

/-- Hidden unit `1024 · b + j`: entry `j` of block `b` of the hidden axis. -/
def unit (b : Fin 4) (j : Fin 1024) : Fin 4096 := ⟨b.val * 1024 + j.val, by omega⟩

/-- Token `512 · q + r` of an expert: row `r` of its token tile `q`. -/
def tok (q : Fin 4) (r : Fin 512) : Fin 2048 := ⟨q.val * 512 + r.val, by omega⟩

/-- A sum over the 4096 hidden units is the sum over the four blocks of the sums inside each block. -/
theorem sum_units {M : Type*} [AddCommMonoid M] (g : Fin 4096 → M) :
    ∑ f : Fin 4096, g f = ∑ b : Fin 4, ∑ j : Fin 1024, g (unit b j) := by
  have e := Equiv.sum_comp (finProdFinEquiv (m := 4) (n := 1024)) g
  rw [← e, Fintype.sum_prod_type]
  refine Finset.sum_congr rfl fun b _ => Finset.sum_congr rfl fun j _ => congrArg g (Fin.ext ?_)
  show j.val + 1024 * b.val = b.val * 1024 + j.val
  omega

/-- Block `b`'s share of the second product: the sum of the summands over the block's 1024 hidden units. -/
def part (X : TokIdx → EReal) (A : W1Idx → EReal) (B : W2Idx → EReal) (e : Fin 8) (c h : Fin 2048) (b : Fin 4) : EReal :=
  ∑ j : Fin 1024, term X A B e c h (unit b j)

/-- The layer's entry is the running total that starts at zero and adds the four blocks' shares in order. -/
theorem ffn_eq_chain (X : TokIdx → EReal) (A : W1Idx → EReal) (B : W2Idx → EReal) (e : Fin 8) (c h : Fin 2048) :
    ffn X A B (ix3 e c h) = 0 + part X A B e c h 0 + part X A B e c h 1 + part X A B e c h 2 + part X A B e c h 3 := by
  show ∑ f : Fin 4096, term X A B e c h f = _
  rw [sum_units, Fin.sum_univ_four, zero_add]
  rfl

/-- The whole computation on the flat token array `x : [16384, 2048]`: regroup the tokens by expert, apply the layer,
    flatten again. The two regroupings are the same row-major reshapes in both programs. -/
def moe (x : (⟨2, ![16384, 2048]⟩ : Shape).Idx → EReal) (A : W1Idx → EReal) (B : W2Idx → EReal)
    (h1 : (⟨2, ![16384, 2048]⟩ : Shape).ShapeCasts ⟨3, ![8, 2048, 2048]⟩)
    (h2 : (⟨3, ![8, 2048, 2048]⟩ : Shape).ShapeCasts ⟨2, ![16384, 2048]⟩) : (⟨2, ![16384, 2048]⟩ : Shape).Idx → EReal :=
  shapeCast ⟨2, ![16384, 2048]⟩ (ffn (shapeCast ⟨3, ![8, 2048, 2048]⟩ x h1) A B) h2

end Cert.Ffn

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.FfnPayload.lean ====
/-
  The body's arithmetic read at one entry, on the extended reals.

  One call computes, from a token tile `x : [1, 512, 2048]`, a tile `w1 : [1, 1024, 2048]` of the first matrix (1024
  hidden units), the matching tile `w2 : [1, 2048, 1024]` of the second matrix and the running total `a : [512, 2048]`,

      a (r, h) + ∑ j < 1024, gelu (∑ k < 2048, x (0, r, k) · w1 (0, j, k)) · w2 (0, h, j).

  Both matrix products contract the LAST axis of both operands, start from a zero accumulator (so they are plain sums),
  and the format changes between them are the identity on extended reals. The unit leading axis of the tiles is
  dropped by a row-major reshape, read here by the reshape lemmas for `[a, b, c] ↔ [a · b, c]`.
-/
import proofs.«142058_j46712064311452_1_alg».proof.Proof.Gen.KernelIdeal.Skeleton
import proofs.«142058_j46712064311452_1_alg».proof.Proof.FfnSpec
import proofs.«142058_j46712064311452_1_alg».proof.Proof.LibLayout
import Idealize.ShloMosaic.PureOps.Ideal.Laws
import Idealize.ShloMosaic.Lib.Pipeline.Value
import Idealize.ShloMosaic.Lib.ValueIdx

noncomputable section

open scoped BigOperators

namespace Cert.KernelIdeal.FfnPayload

open Cert.KernelIdeal Cert.KernelIdeal.Gen Cert.Ffn Cert.LibLayout
open Idealize.ShloMosaic Idealize.ShloMosaic.ValueIdx

/-- Operand coordinates of the first product, tokens [512, 2048] against hidden units [1024, 2048]: the output's row comes from the left operand's rows, its column from the
    right operand's rows, and both operands' last axis is summed. -/
theorem mm1_lhs0 (i : S512x1024.Idx) (q : dot_S512x2048_S1024x2048_S512x1024_1_1_0_0_n_n.contr.Idx) : (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem mm1_lhs1 (i : S512x1024.Idx) (q : dot_S512x2048_S1024x2048_S512x1024_1_1_0_0_n_n.contr.Idx) : (dot_S512x2048_S1024x2048_S512x1024_1_1_0_0_n_n.lhsIdx i q 1).val = (q ⟨0, by decide⟩).val :=
  dot_S512x2048_S1024x2048_S512x1024_1_1_0_0_n_n.lhsIdx_val_of_single rfl i q
theorem mm1_rhs0 (i : S512x1024.Idx) (q : dot_S512x2048_S1024x2048_S512x1024_1_1_0_0_n_n.contr.Idx) : (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem mm1_rhs1 (i : S512x1024.Idx) (q : dot_S512x2048_S1024x2048_S512x1024_1_1_0_0_n_n.contr.Idx) : (dot_S512x2048_S1024x2048_S512x1024_1_1_0_0_n_n.rhsIdx i q 1).val = (q ⟨0, by decide⟩).val :=
  dot_S512x2048_S1024x2048_S512x1024_1_1_0_0_n_n.rhsIdx_val_of_single rfl i q

/-- the first product, tokens [512, 2048] against hidden units [1024, 2048] into a zero accumulator, read at `(p, q)`: the inner product of row `p` of the left operand with row `q` of
    the right one. -/
theorem mm1_apply (l : FVec Ideal S512x2048 .bf16) (r : FVec Ideal S1024x2048 .bf16) (p : Fin 512) (q : Fin 1024) :
    matmul dot_S512x2048_S1024x2048_S512x1024_1_1_0_0_n_n none l r (constant S512x1024 .f32 0x00000000#32) (ix2 p q) = ∑ k : Fin 2048, l (ix2 p k) * r (ix2 q k) := by
  simp only [matmul]
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p q) ((contrEquiv1 dot_S512x2048_S1024x2048_S512x1024_1_1_0_0_n_n 2048 rfl rfl).symm k) = ix2 p k := funext fun a => Fin.ext (by
    match a with
    | ⟨0, _⟩ => exact mm1_lhs0 _ _
    | ⟨1, _⟩ => exact (mm1_lhs1 _ _).trans hk)
  have er : dot_S512x2048_S1024x2048_S512x1024_1_1_0_0_n_n.rhsIdx (ix2 p q) ((contrEquiv1 dot_S512x2048_S1024x2048_S512x1024_1_1_0_0_n_n 2048 rfl rfl).symm k) = ix2 q k := funext fun a => Fin.ext (by
    match a with
    | ⟨0, _⟩ => exact mm1_rhs0 _ _
    | ⟨1, _⟩ => exact (mm1_rhs1 _ _).trans hk)
  rw [el, er]

/-- Operand coordinates of the second product, activations [512, 1024] against output features [2048, 1024]: the output's row comes from the left operand's rows, its column from the
    right operand's rows, and both operands' last axis is summed. -/
theorem mm2_lhs0 (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem mm2_lhs1 (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem mm2_rhs0 (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem mm2_rhs1 (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

/-- the second product, activations [512, 1024] against output features [2048, 1024] into a zero accumulator, read at `(p, q)`: the inner product of row `p` of the left operand with row `q` of
    the right one. -/
theorem mm2_apply (l : FVec Ideal S512x1024 .bf16) (r : FVec Ideal S2048x1024 .bf16) (p : Fin 512) (q : Fin 2048) :
    matmul dot_S512x1024_S2048x1024_S512x2048_1_1_0_0_n_n none l r (constant S512x2048 .f32 0x00000000#32) (ix2 p q) = ∑ k : Fin 1024, l (ix2 p k) * r (ix2 q k) := by
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q) ((contrEquiv1 dot_S512x1024_S2048x1024_S512x2048_1_1_0_0_n_n 1024 rfl rfl).symm k) = ix2 p k := funext fun a => Fin.ext (by
    match a with
    | ⟨0, _⟩ => exact mm2_lhs0 _ _
    | ⟨1, _⟩ => exact (mm2_lhs1 _ _).trans hk)
  have er : dot_S512x1024_S2048x1024_S512x2048_1_1_0_0_n_n.rhsIdx (ix2 p q) ((contrEquiv1 dot_S512x1024_S2048x1024_S512x2048_1_1_0_0_n_n 1024 rfl rfl).symm k) = ix2 q k := funext fun a => Fin.ext (by
    match a with
    | ⟨0, _⟩ => exact mm2_rhs0 _ _
    | ⟨1, _⟩ => exact (mm2_rhs1 _ _).trans hk)
  rw [el, er]

/-- The zero tile: the accumulator's reset value is the extended real `0` everywhere. -/
theorem zero_apply (j : S512x2048.Idx) : k0_pay2 (F := Ideal) j = 0 := by
  unfold k0_pay2
  refine (congrFun (shapeCast_self _ _) j).trans ?_
  exact Ideal.ofBits_zero_f32

/-- The copy into the output tile puts a unit axis in front: entry `(u, r, h)` of the copy is entry `(r, h)`. -/
theorem copy_apply {F : FTy → Type} [FloatOps F] (v : Vec F S512x2048 .f32) (u : Fin 1) (r : Fin 512) (h : Fin 2048) :
    k0_pay1 v (ix3 u r h) = v (ix2 r h) := by
  unfold k0_pay1
  exact shapeCast_nc_abc_apply v _ u r h r (by have := u.isLt; omega)

/-- The pointwise chain between the two products, at one entry `i` of a tile `z` of pre-activations, is GELU of that
    entry: every operation in it acts entry by entry, a splat constant reads its word everywhere, and the final change
    of format is the identity on extended reals. -/
theorem act_apply (z : FVec Ideal S512x1024 .f32) (i : S512x1024.Idx) :
    truncf .bf16 (mulf z (mulf (broadcast S512x1024 (Scalar.ofBits .f32 0x3F000000#32))
      (addf (broadcast S512x1024 (Scalar.ofBits .f32 0x3F800000#32))
        (tanh (mulf (broadcast S512x1024 (Scalar.ofBits .f32 0x3F4C422A#32))
          (addf z (mulf (broadcast S512x1024 (Scalar.ofBits .f32 0x3D372713#32)) (mulf z (mulf z z))))))))) bitsLt_bf16_f32 i
      = gelu (z i) := rfl

/-- ONE CALL'S ARITHMETIC at entry `(r, h)`: the running total there plus this block of hidden units' share. -/
theorem step_apply (x : Vec Ideal S1x512x2048 .bf16) (w1 : Vec Ideal S1x1024x2048 .bf16) (w2 : Vec Ideal S1x2048x1024 .bf16)
    (a : Vec Ideal S512x2048 .f32) (r : Fin 512) (h : Fin 2048) :
    k0_pay3 (F := Ideal) x w1 w2 a (ix2 r h)
      = a (ix2 r h) + ∑ j : Fin 1024, gelu (∑ k : Fin 2048, x (ix3 (0 : Fin 1) r k) * w1 (ix3 (0 : Fin 1) j k)) * w2 (ix3 (0 : Fin 1) h j) := by
  unfold k0_pay3
  refine (congrFun (shapeCast_self _ _) (ix2 r h)).trans ?_
  refine congrArg (a (ix2 r h) + ·) ?_
  refine (mm2_apply _ _ r h).trans ?_
  refine Finset.sum_congr rfl fun j _ => ?_
  refine congrArg₂ (· * ·) ?_ (shapeCast_abc_nc_apply w2 _ (0 : Fin 1) h j h (by simp))
  refine (act_apply _ (ix2 r j)).trans ?_
  refine congrArg gelu ?_
  refine (mm1_apply _ _ r j).trans ?_
  refine Finset.sum_congr rfl fun k _ => ?_
  exact congrArg₂ (· * ·) (shapeCast_abc_nc_apply x _ (0 : Fin 1) r k r (by simp))
    (shapeCast_abc_nc_apply w1 _ (0 : Fin 1) j k j (by simp))

end Cert.KernelIdeal.FfnPayload

end
-- ==== Proof.FfnBlocks.lean ====
/-
  The kernel's tiles, located in their arrays.

  The grid has 8 · 4 · 4 = 128 points, visited in row-major order: point `t` is expert `t / 16`, token tile
  `t / 4 % 4` (512 tokens each), hidden block `t % 4` (1024 hidden units each). At point `t` the kernel is handed

    * rows `512 · (t / 4 % 4) …` of expert `t / 16`'s tokens,
    * rows `1024 · (t % 4) …` of that expert's first matrix,
    * columns `1024 · (t % 4) …` of its second matrix,

  and its output tile is rows `512 · (t / 4 % 4) …` of the expert's result, written back at the last hidden block only
  (`t % 4 = 3`). A tile's entry sits in the array at block index · block size + the coordinate inside the tile.
  Before the kernel starts, the flat token array is regrouped by expert; that and a change of float format (the
  identity on extended reals) are all that happens to the inputs on the way in.
-/
import proofs.«142058_j46712064311452_1_alg».proof.Proof.Gen.KernelIdeal.Frame
import proofs.«142058_j46712064311452_1_alg».proof.Proof.FfnSpec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.FfnBlocks

open Cert.KernelIdeal Cert.KernelIdeal.Gen Cert.Ffn Idealize.ShloMosaic.ValueIdx

variable (m : (ℓ : Loc nD τ sig) → Buf (Elt Ideal) ℓ)

/-! ## What the kernel finds in its three input arrays -/

/-- The token array the kernel reads is the flat argument regrouped by expert. -/
theorem tokens_eq (c : Dev nD) :
    (V m c main_v1 : S8x2048x2048.Idx → EReal)
      = shapeCast S8x2048x2048 (m ((c : Thread nD τ).loc main_arg0)) shapeCasts_S16384x2048_S8x2048x2048 := by
  show StableHlo.after hostOps0 (fun b => m (c, b)) (Proc.devRef .tc main_v1) = _
  after_results
  rfl

/-- The first weight array it reads is the argument. -/
theorem w1_eq (c : Dev nD) : (V m c main_v2 : S8x4096x2048.Idx → EReal) = m ((c : Thread nD τ).loc main_arg1) := by
  show StableHlo.after hostOps0 (fun b => m (c, b)) (Proc.devRef .tc main_v2) = _
  after_results
  rfl

/-- The second weight array it reads is the argument. -/
theorem w2_eq (c : Dev nD) : (V m c main_v3 : S8x2048x4096.Idx → EReal) = m ((c : Thread nD τ).loc main_arg2) := by
  show StableHlo.after hostOps0 (fun b => m (c, b)) (Proc.devRef .tc main_v3) = _
  after_results
  rfl

/-! ## The four index maps, decided once over the grid -/

theorem idx_tok : ∀ t : Fin cfg0.N, win0_0.index t (0 : Fin 3) = t.val / 16 ∧ win0_0.index t (1 : Fin 3) = t.val / 4 % 4
    ∧ win0_0.index t (2 : Fin 3) = 0 :=
  (by decide +kernel : ∀ t : Fin grid0.N, _)
theorem idx_w1 : ∀ t : Fin cfg0.N, win0_1.index t (0 : Fin 3) = t.val / 16 ∧ win0_1.index t (1 : Fin 3) = t.val % 4
    ∧ win0_1.index t (2 : Fin 3) = 0 :=
  (by decide +kernel : ∀ t : Fin grid0.N, _)
theorem idx_w2 : ∀ t : Fin cfg0.N, win0_2.index t (0 : Fin 3) = t.val / 16 ∧ win0_2.index t (1 : Fin 3) = 0
    ∧ win0_2.index t (2 : Fin 3) = t.val % 4 :=
  (by decide +kernel : ∀ t : Fin grid0.N, _)
theorem idx_out : ∀ t : Fin cfg0.N, win0_3.index t (0 : Fin 3) = t.val / 16 ∧ win0_3.index t (1 : Fin 3) = t.val / 4 % 4
    ∧ win0_3.index t (2 : Fin 3) = 0 :=
  (by decide +kernel : ∀ t : Fin grid0.N, _)

/-! ## Each input tile read at an entry -/

/-- Row `r`, feature `k` of the token tile at point `t` is token `512 · q + r` of expert `e`, for `e = t / 16` and `q = t / 4 % 4`. -/
theorem tok_blk (c : Dev nD) (t : Fin cfg0.N) (r : Fin 512) (k : Fin 2048) (e : Fin 8) (q : Fin 4) (hq : t.val / 4 % 4 = q.val) (he : t.val / 16 = e.val) :
    (iblk m c 0 t : Vec Ideal S1x512x2048 .bf16) (ix3 (0 : Fin 1) r k) = (V m c main_v1 : S8x2048x2048.Idx → EReal) (ix3 e (tok q r) k) := by
  unfold iblk
  rw [View.read_apply]
  show V m c main_v1 _ = V m c main_v1 _
  congr 1
  obtain ⟨i0, i1, i2⟩ := idx_tok t
  funext a; apply Fin.ext
  match a with
  | ⟨0, _⟩ => show win0_0.index t (0 : Fin 3) * 1 + 1 * 0 = e.val; omega
  | ⟨1, _⟩ => show win0_0.index t (1 : Fin 3) * 512 + 1 * r.val = q.val * 512 + r.val; omega
  | ⟨2, _⟩ => show win0_0.index t (2 : Fin 3) * 2048 + 1 * k.val = k.val; omega

/-- Row `j`, feature `k` of the first-matrix tile at point `t` is hidden unit `1024 · b + j` of expert `e`, for `b = t % 4`. -/
theorem w1_blk (c : Dev nD) (t : Fin cfg0.N) (j : Fin 1024) (k : Fin 2048) (e : Fin 8) (b : Fin 4) (hb : t.val % 4 = b.val) (he : t.val / 16 = e.val) :
    (iblk m c 1 t : Vec Ideal S1x1024x2048 .bf16) (ix3 (0 : Fin 1) j k) = (V m c main_v2 : S8x4096x2048.Idx → EReal) (ix3 e (unit b j) k) := by
  unfold iblk
  rw [View.read_apply]
  show V m c main_v2 _ = V m c main_v2 _
  congr 1
  obtain ⟨i0, i1, i2⟩ := idx_w1 t
  funext a; apply Fin.ext
  match a with
  | ⟨0, _⟩ => show win0_1.index t (0 : Fin 3) * 1 + 1 * 0 = e.val; omega
  | ⟨1, _⟩ => show win0_1.index t (1 : Fin 3) * 1024 + 1 * j.val = b.val * 1024 + j.val; omega
  | ⟨2, _⟩ => show win0_1.index t (2 : Fin 3) * 2048 + 1 * k.val = k.val; omega

/-- Row `h`, column `j` of the second-matrix tile at point `t` is output feature `h`, hidden unit `1024 · b + j` of expert `e`. -/
theorem w2_blk (c : Dev nD) (t : Fin cfg0.N) (h : Fin 2048) (j : Fin 1024) (e : Fin 8) (b : Fin 4) (hb : t.val % 4 = b.val) (he : t.val / 16 = e.val) :
    (iblk m c 2 t : Vec Ideal S1x2048x1024 .bf16) (ix3 (0 : Fin 1) h j) = (V m c main_v3 : S8x2048x4096.Idx → EReal) (ix3 e h (unit b j)) := by
  unfold iblk
  rw [View.read_apply]
  show V m c main_v3 _ = V m c main_v3 _
  congr 1
  obtain ⟨i0, i1, i2⟩ := idx_w2 t
  funext a; apply Fin.ext
  match a with
  | ⟨0, _⟩ => show win0_2.index t (0 : Fin 3) * 1 + 1 * 0 = e.val; omega
  | ⟨1, _⟩ => show win0_2.index t (1 : Fin 3) * 2048 + 1 * h.val = h.val; omega
  | ⟨2, _⟩ => show win0_2.index t (2 : Fin 3) * 1024 + 1 * j.val = b.val * 1024 + j.val; omega

/-! ## The output tiles cover the result array -/

/-- Entry `(u, r, h)` of the output tile at point `t` sits at `(e, 512 · q + r, h)` of the result array. -/
theorem out_emb (t : Fin cfg0.N) (u : Fin 1) (r : Fin 512) (h : Fin 2048) (e : Fin 8) (q : Fin 4)
    (he : t.val / 16 = e.val) (hq : t.val / 4 % 4 = q.val) :
    ((cfg0.win 3).blk t).view.emb (ix3 u r h) = (ix3 e (tok q r) h : S8x2048x2048.Idx) := by
  obtain ⟨i0, i1, i2⟩ := idx_out t
  have hu : u.val = 0 := by omega
  funext a; apply Fin.ext
  match a with
  | ⟨0, _⟩ => show win0_3.index t (0 : Fin 3) * 1 + 1 * u.val = e.val; omega
  | ⟨1, _⟩ => show win0_3.index t (1 : Fin 3) * 512 + 1 * r.val = q.val * 512 + r.val; omega
  | ⟨2, _⟩ => show win0_3.index t (2 : Fin 3) * 2048 + 1 * h.val = h.val; omega

/-- An index of the result array is in point `t`'s output tile iff each coordinate is in the tile's range on its axis. -/
theorem mem_out_blk (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v4).slice (win0_3.rect t)).set ↔ _
  rw [View.set_slice_whole, Rect.mem_set_unit]
  exact Iff.rfl

/-- Every entry `(e, c, h)` of the result array is in the tile written back at the last hidden block of expert `e`'s
    token tile `c / 512`: point `16 · e + 4 · (c / 512) + 3`. -/
theorem out_cover (i : S8x2048x2048.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  have hN : cfg0.N = 128 := N_0
  obtain ⟨t, ht⟩ : ∃ t : Fin cfg0.N, t.val = 16 * (i 0).val + 4 * ((i 1).val / 512) + 3 :=
    ⟨⟨16 * (i 0).val + 4 * ((i 1).val / 512) + 3, by rw [hN]; omega⟩, rfl⟩
  refine ⟨t, (flush0_3 t).mpr (by omega), ?_⟩
  rw [mem_out_blk]
  obtain ⟨i0, i1, i2⟩ := idx_out t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

end Cert.KernelIdeal.FfnBlocks

end
-- ==== Proof.FfnKernelValue.lean ====
/-
  The kernel's result, read off its run.

  For one token tile of one expert the grid visits the four hidden blocks in order. The running total in the scratch
  tile after them is `step₃ (step₂ (step₁ (step₀ 0)))`, each `stepₖ` adding hidden block `k`'s share, and the tile written
  back at the fourth visit is that total. Entry by entry this is `(((0 + share₀) + share₁) + share₂) + share₃`, which is
  the layer's sum over all 4096 hidden units. The written tiles cover the result array, so the array ends holding the
  layer of the arrays the kernel was given; the one host operation after the kernel flattens it.
-/
import proofs.«142058_j46712064311452_1_alg».proof.Proof.FfnPieces
import proofs.«142058_j46712064311452_1_alg».proof.Proof.FfnPayload
import proofs.«142058_j46712064311452_1_alg».proof.Proof.FfnBlocks

noncomputable section

open scoped BigOperators
open Idealize.ShloMosaic Idealize.ShloMosaic.TcCoe Idealize.SL.Sem
open Idealize.ShloMosaic.Pipeline (Dat)

namespace Cert.KernelIdeal.FfnValue

open Cert.KernelIdeal Cert.KernelIdeal.Gen Cert.Ffn Idealize.ShloMosaic.ValueIdx
open Cert.KernelIdeal.FfnPieces Cert.KernelIdeal.FfnPayload Cert.KernelIdeal.FfnBlocks

variable (m : (ℓ : Loc nD τ sig) → Buf (Elt Ideal) ℓ) (ρ : Dev nD → PrngReg)

/-- The three arrays the kernel reads, as it finds them. -/
abbrev X (c : Dev nD) : TokIdx → EReal := V m c main_v1
abbrev A (c : Dev nD) : W1Idx → EReal := V m c main_v2
abbrev B (c : Dev nD) : W2Idx → EReal := V m c main_v3

/-! ## The running total, point by point -/

/-- The point before `t` in the grid's order. -/
abbrev prev (t : Fin cfg0.N) : Fin cfg0.N := ⟨t.val - 1, Nat.lt_of_le_of_lt (Nat.sub_le _ _) t.isLt⟩

/-- One call at point `t` turns the running total `a` into `a` plus the point's hidden block's share. -/
def stepAt (c : Dev nD) (t : Fin cfg0.N) (a : Vec Ideal S512x2048 .f32) : Vec Ideal S512x2048 .f32 :=
  k0_pay3 (iblk m c 0 t) (iblk m c 1 t) (iblk m c 2 t) a

/-- After a first hidden block the scratch tile holds one step from zero. -/
theorem acc_first (c : Dev nD) (t : Fin cfg0.N) (h0 : t.val % 4 = 0) (h1 : ¬t.val % 4 = 3) :
    (outsAt0 m c t.val t.isLt).2 = stepAt m c t (k0_pay2 (F := Ideal)) := by
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After a middle hidden block it holds one step from what the point before left. -/
theorem acc_middle (c : Dev nD) (t : Fin cfg0.N) (h0 : ¬t.val % 4 = 0) (h1 : ¬t.val % 4 = 3) :
    (outsAt0 m c t.val t.isLt).2 = stepAt m c t (outsAt0 m c (prev t).val (prev t).isLt).2 := by
  rw [outsAt0_B m c t h0 h1]
  dsimp only
  exact scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

/-- At the last hidden block the output tile receives a copy of one step from what the point before left. -/
theorem out_at_last (c : Dev nD) (t : Fin cfg0.N) (h0 : ¬t.val % 4 = 0) (h1 : t.val % 4 = 3) :
    (outsAt0 m c t.val t.isLt).1 = k0_pay1 (stepAt m c t (outsAt0 m c (prev t).val (prev t).isLt).2) := by
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- So the tile written back at a last hidden block is four steps from zero, one per hidden block of its token tile. -/
theorem out_unrolled (c : Dev nD) (t : Fin cfg0.N) (h3 : t.val % 4 = 3) :
    (outsAt0 m c t.val t.isLt).1
      = k0_pay1 (stepAt m c t (stepAt m c (prev t) (stepAt m c (prev (prev t)) (stepAt m c (prev (prev (prev t))) (k0_pay2 (F := Ideal)))))) := by
  have e1 : (prev t).val = t.val - 1 := rfl
  have e2 : (prev (prev t)).val = t.val - 1 - 1 := rfl
  have e3 : (prev (prev (prev t))).val = t.val - 1 - 1 - 1 := rfl
  rw [out_at_last m c t (by omega) h3, acc_middle m c (prev t) (by omega) (by omega),
    acc_middle m c (prev (prev t)) (by omega) (by omega), acc_first m c (prev (prev (prev t))) (by omega) (by omega)]

/-- One step at an entry: the total there plus the share of the point's hidden block `b`, for the point's expert `e` and
    token tile `q`. -/
theorem stepAt_apply (c : Dev nD) (t : Fin cfg0.N) (e : Fin 8) (q b : Fin 4) (he : t.val / 16 = e.val)
    (hq : t.val / 4 % 4 = q.val) (hb : t.val % 4 = b.val) (a : Vec Ideal S512x2048 .f32) (r : Fin 512) (h : Fin 2048) :
    stepAt m c t a (ix2 r h) = a (ix2 r h) + part (X m c) (A m c) (B m c) e (tok q r) h b := by
  unfold stepAt
  refine (step_apply (iblk m c 0 t) (iblk m c 1 t) (iblk m c 2 t) a r h).trans ?_
  refine congrArg (a (ix2 r h) + ·) ?_
  unfold part term hid
  refine Finset.sum_congr rfl fun j _ => ?_
  exact congrArg₂ (· * ·)
    (congrArg gelu (Finset.sum_congr rfl fun k _ => congrArg₂ (· * ·) (tok_blk m c t r k e q hq he) (w1_blk m c t j k e b hb he)))
    (w2_blk m c t h j e b hb he)

/-! ## The result array -/

/-- WHAT A WRITING POINT WRITES BACK is its tile of the layer of the arrays the kernel was given. -/
theorem flushed_eq (c : Dev nD) (t : Fin cfg0.N) (hf : (cfg0.win 3).flush t = true) :
    (dats m 0 c).flushed 3 t = ((cfg0.win 3).blk t).view.read (Elt Ideal) (ffn (X m c) (A m c) (B m c)) := by
  have h3 : t.val % 4 = 3 := (flush0_3 t).mp hf
  have hN : t.val < 128 := lt_of_lt_of_eq t.isLt (show cfg0.N = 128 from N_0)
  show (cfg0.win 3).cut (grid0.coords t) ((dats m 0 c).after 3 t) = _
  rw [after0_3, out_unrolled m c t h3]
  refine funext fun (y : S1x512x2048.Idx) => ?_
  obtain ⟨u, r, h, rfl⟩ : ∃ (u : Fin 1) (r : Fin 512) (h : Fin 2048), y = ix3 u r h := ⟨y 0, y 1, y 2, eq_ix3 y⟩
  obtain ⟨e, he⟩ : ∃ e : Fin 8, t.val / 16 = e.val := ⟨⟨t.val / 16, by omega⟩, rfl⟩
  obtain ⟨q, hq⟩ : ∃ q : Fin 4, t.val / 4 % 4 = q.val := ⟨⟨t.val / 4 % 4, by omega⟩, rfl⟩
  have e1 : (prev t).val = t.val - 1 := rfl
  have e2 : (prev (prev t)).val = t.val - 1 - 1 := rfl
  have e3 : (prev (prev (prev t))).val = t.val - 1 - 1 - 1 := rfl
  refine Eq.trans ?_ (congrArg (ffn (X m c) (A m c) (B m c)) (out_emb t u r h e q he hq)).symm
  change k0_pay1 _ (ix3 u r h) = _
  rw [ffn_eq_chain, copy_apply,
    stepAt_apply m c t e q 3 he hq (by show t.val % 4 = 3; omega),
    stepAt_apply m c (prev t) e q 2 (by omega) (by omega) (by show (prev t).val % 4 = 2; omega),
    stepAt_apply m c (prev (prev t)) e q 1 (by omega) (by omega) (by show (prev (prev t)).val % 4 = 1; omega),
    stepAt_apply m c (prev (prev (prev t))) e q 0 (by omega) (by omega) (by show (prev (prev (prev t))).val % 4 = 0; omega),
    zero_apply]

/-- The result array ends holding the layer of the arrays the kernel was given: the written tiles cover it. -/
theorem final (c : Dev nD) : (dats m 0 c).arrAt 3 cfg0.N = ffn (X m c) (A m c) (B m c) :=
  (dats m 0 c).arrAt_eq_of_cover 3 (ffn (X m c) (A m c) (B m c)) (flushed_eq m c) out_cover

/-! ## The host operation after the kernel, and the run -/

/-- The program's result: the result array flattened, which is the whole computation on the flat token array. -/
theorem result_eq (c : Dev nD) :
    Pipeline.afterTail₀ cfgs (dats m) 0 (V0 m) [hostOps1] c main_v5
      = moe (m ((c : Thread nD τ).loc main_arg0)) (m ((c : Thread nD τ).loc main_arg1)) (m ((c : Thread nD τ).loc main_arg2))
          shapeCasts_S16384x2048_S8x2048x2048 shapeCasts_S8x2048x2048_S16384x2048 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = ffn (shapeCast S8x2048x2048 (m ((c : Thread nD τ).loc main_arg0)) shapeCasts_S16384x2048_S8x2048x2048)
          (m ((c : Thread nD τ).loc main_arg1)) (m ((c : Thread nD τ).loc main_arg2)) :=
    (Pipeline.withArrays_arr spec0 launch0.win.arr_inj c _ _ 3).trans ((final m c).trans (by
      unfold X A B
      rw [tokens_eq, w1_eq, w2_eq]))
  rw [hw]
  rfl

/-- THE RUN, READ: every weakly fair execution terminates with the result at the whole computation on the flat token
    array, and the four arguments as they were. -/
theorem run : θ_run defs (onTc (τ := τ) (main (F := Ideal))) ⟨m, fun _ => 0, ρ⟩ fun r => ∀ c : Dev nD,
      r.2.mem ((c : Thread nD τ).loc main_v5)
        = moe (m ((c : Thread nD τ).loc main_arg0)) (m ((c : Thread nD τ).loc main_arg1)) (m ((c : Thread nD τ).loc main_arg2))
            shapeCasts_S16384x2048_S8x2048x2048 shapeCasts_S8x2048x2048_S16384x2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.FfnValue

end
-- ==== Proof.FfnReference.lean ====
/-
  The reference computes the layer: read one operation at a time at an index, its second product is
  `∑ f, gelu (∑ k, X (e, c, k) · A (e, f, k)) · B (e, h, f)` of the regrouped tokens `X`. The reference spells the
  cube inside GELU as `(z · z) · z`; multiplication of extended reals commutes, so this is the layer's `z · (z · z)`.
-/
import proofs.«142058_j46712064311452_1_alg».proof.Proof.Gen.ReferenceIdeal.Read
import proofs.«142058_j46712064311452_1_alg».proof.Proof.FfnSpec

noncomputable section

open scoped BigOperators

namespace Cert.ReferenceIdeal.FfnRef

open Cert.ReferenceIdeal Cert.ReferenceIdeal.Gen Cert.ReferenceIdeal.Read Cert.Ffn
open Idealize.ShloMosaic Idealize.ShloMosaic.ValueIdx

/-- The two products' operand indices, by coordinates: both contract the operands' last axis and share the expert axis. -/
theorem lidx1 (i : S8x2048x4096.Idx) (k : Fin 2048) : lidx_main_v1 i k = ix3 (i 0) (i 1) k :=
  funext fun a => by match a with | ⟨0, _⟩ => rfl | ⟨1, _⟩ => rfl | ⟨2, _⟩ => rfl
theorem ridx1 (i : S8x2048x4096.Idx) (k : Fin 2048) : ridx_main_v1 i k = ix3 (i 0) (i 2) k :=
  funext fun a => by match a with | ⟨0, _⟩ => rfl | ⟨1, _⟩ => rfl | ⟨2, _⟩ => rfl
theorem lidx15 (i : S8x2048x2048.Idx) (k : Fin 4096) : lidx_main_v15 i k = ix3 (i 0) (i 1) k :=
  funext fun a => by match a with | ⟨0, _⟩ => rfl | ⟨1, _⟩ => rfl | ⟨2, _⟩ => rfl
theorem ridx15 (i : S8x2048x2048.Idx) (k : Fin 4096) : ridx_main_v15 i k = ix3 (i 0) (i 2) k :=
  funext fun a => by match a with | ⟨0, _⟩ => rfl | ⟨1, _⟩ => rfl | ⟨2, _⟩ => rfl

/-- The first product at `(e, c, f)` is the hidden pre-activation of token `c` of expert `e` at unit `f`. -/
theorem hidden_apply (x0 : (⟨S16384x2048, .f32⟩ : BufTy).Contents (Elt Ideal)) (x1 : (⟨S8x4096x2048, .f32⟩ : BufTy).Contents (Elt Ideal))
    (e : Fin 8) (c : Fin 2048) (f : Fin 4096) :
    val_main_v1 (F := Ideal) x0 x1 (ix3 e c f) = hid (val_main_v0 (F := Ideal) x0) x1 e c f := by
  rw [val_main_v1_apply]
  unfold hid
  refine Finset.sum_congr rfl fun k _ => ?_
  rw [lidx1, ridx1]
  rfl

/-- The elementwise chain after it is GELU of that pre-activation. -/
theorem act_apply (x0 : (⟨S16384x2048, .f32⟩ : BufTy).Contents (Elt Ideal)) (x1 : (⟨S8x4096x2048, .f32⟩ : BufTy).Contents (Elt Ideal))
    (e : Fin 8) (c : Fin 2048) (f : Fin 4096) :
    val_main_v14 (F := Ideal) x0 x1 (ix3 e c f) = gelu (hid (val_main_v0 (F := Ideal) x0) x1 e c f) := by
  simp only [val_main_v14_apply, val_main_v13_apply, val_main_v12_apply, val_main_cst_2_apply, val_main_v11_apply, val_main_v10_apply, val_main_cst_1_apply, val_main_v9_apply, val_main_v8_apply, val_main_v7_apply, val_main_cst_0_apply, val_main_v6_apply, val_main_v5_apply, val_main_v4_apply, val_main_cst_apply, val_main_v3_apply, val_main_v2_apply, hidden_apply, Ideal.mulf_def, Ideal.addf_def, Ideal.hostUnary_tanh_def, Ideal.ofBits_def]
  exact gelu_cube_left _

/-- So the second product is the layer of the regrouped tokens. -/
theorem layer_eq (x0 : (⟨S16384x2048, .f32⟩ : BufTy).Contents (Elt Ideal)) (x1 : (⟨S8x4096x2048, .f32⟩ : BufTy).Contents (Elt Ideal))
    (x2 : (⟨S8x2048x4096, .f32⟩ : BufTy).Contents (Elt Ideal)) :
    val_main_v15 (F := Ideal) x0 x1 x2 = ffn (val_main_v0 (F := Ideal) x0) x1 x2 := by
  funext j
  obtain ⟨e, c, h, rfl⟩ : ∃ (e : Fin 8) (c h : Fin 2048), j = ix3 e c h := ⟨j 0, j 1, j 2, eq_ix3 j⟩
  rw [val_main_v15_apply]
  show _ = ∑ f : Fin 4096, term (val_main_v0 (F := Ideal) x0) x1 x2 e c h f
  refine Finset.sum_congr rfl fun f _ => ?_
  rw [lidx15, ridx15]
  show val_main_v14 (F := Ideal) x0 x1 (ix3 e c f) * x2 (ix3 e h f) = _
  rw [act_apply]
  rfl

/-- The reference's result is the whole computation on the flat token array. -/
theorem result_eq (x0 : (⟨S16384x2048, .f32⟩ : BufTy).Contents (Elt Ideal)) (x1 : (⟨S8x4096x2048, .f32⟩ : BufTy).Contents (Elt Ideal))
    (x2 : (⟨S8x2048x4096, .f32⟩ : BufTy).Contents (Elt Ideal)) :
    val_main_v16 (F := Ideal) x0 x1 x2 = moe x0 x1 x2 shapeCasts_S16384x2048_S8x2048x2048 shapeCasts_S8x2048x2048_S16384x2048 := by
  unfold val_main_v16 moe
  rw [layer_eq]
  rfl

end Cert.ReferenceIdeal.FfnRef

end
-- ==== Proof.lean ====
/-
  A mixture-of-experts feed-forward layer, fused into one tiled kernel, against its plain description.

  16384 tokens of 2048 features arrive already grouped by expert, 2048 tokens for each of 8 experts. Expert `e` maps its
  token `x` to `W2ₑ · gelu (W1ₑ · x)`, with 4096 hidden units and the tanh form of GELU. The reference says exactly this
  with two batched matrix products. The kernel walks a grid of (expert, tile of 512 tokens, block of 1024 hidden
  units): at each point it forms that block's hidden activations for the tile, multiplies them by the matching columns
  of the second matrix, and adds the product to a running total kept in a scratch tile, which is zeroed at a tile's
  first block and copied to the result after its fourth.

  On the extended reals the two agree entry by entry, for every input: the float formats the kernel narrows to are
  the identity there; its matrix products start from zero and are plain sums; GELU is spelt with the same four
  constants on both sides and differs only in how the cube `z³` is bracketed (multiplication commutes); and the
  running total `(((0 + s₀) + s₁) + s₂) + s₃` of the four blocks' partial sums is the one sum over all 4096 hidden
  units (addition is commutative and associative). Nothing is cancelled or distributed, so finiteness of the inputs is
  never used. The kernel's idealization rewrote nothing, so it is the kernel's own text read on the extended reals.

  The modules: `FfnSpec` (the layer as a function, and the regrouping of its sum), `FfnReference` (the reference
  computes it), `FfnPieces` / `FfnPayload` / `FfnBlocks` (what one call of the body leaves, its arithmetic at an
  entry, where its tiles sit in the arrays), `FfnKernelValue` (the kernel's result array and its run), `LibLayout`
  (row-major reshapes read at coordinates).
-/
import proofs.«142058_j46712064311452_1_alg».proof.Defs
import proofs.«142058_j46712064311452_1_alg».proof.Proof.Gen.Kernel
import proofs.«142058_j46712064311452_1_alg».proof.Proof.Gen.Kernel.Skeleton
import proofs.«142058_j46712064311452_1_alg».proof.Proof.Gen.Kernel.Launch
import proofs.«142058_j46712064311452_1_alg».proof.Proof.Gen.Kernel.Points
import proofs.«142058_j46712064311452_1_alg».proof.Proof.Gen.Kernel.Frame
import proofs.«142058_j46712064311452_1_alg».proof.Proof.Gen.KernelIdeal
import proofs.«142058_j46712064311452_1_alg».proof.Proof.Gen.KernelIdeal.Skeleton
import proofs.«142058_j46712064311452_1_alg».proof.Proof.Gen.KernelIdeal.Launch
import proofs.«142058_j46712064311452_1_alg».proof.Proof.Gen.KernelIdeal.Points
import proofs.«142058_j46712064311452_1_alg».proof.Proof.Gen.KernelIdeal.Frame
import proofs.«142058_j46712064311452_1_alg».proof.Proof.Gen.ReferenceIdeal
import proofs.«142058_j46712064311452_1_alg».proof.Proof.Gen.ReferenceIdeal.Run
import proofs.«142058_j46712064311452_1_alg».proof.Proof.Gen.ReferenceIdeal.Read
import proofs.«142058_j46712064311452_1_alg».proof.Proof.Gen.Pre_finite_inputs
import proofs.«142058_j46712064311452_1_alg».proof.Proof.FfnKernelValue
import proofs.«142058_j46712064311452_1_alg».proof.Proof.FfnReference
import Idealize.ShloMosaic.Adequacy
import Idealize.ShloMosaic.Init

noncomputable section

namespace Cert.Proof

open Idealize.ShloMosaic Idealize.ShloMosaic.TcCoe Idealize.SL.Sem

/-- The kernel as compiled runs to the end without a fault and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end with the layer of the flat token array in their result:
    the kernel by its run read tile by tile, the reference by its operations read one at a time. -/
theorem algebraic : Cert.algebraic_KernelIdeal_ReferenceIdeal := by
  intro m ρ m' ρ' _ hagree
  refine ⟨fun c => Cert.Ffn.moe (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      Cert.KernelIdeal.Gen.shapeCasts_S16384x2048_S8x2048x2048 Cert.KernelIdeal.Gen.shapeCasts_S8x2048x2048_S16384x2048,
    Cert.KernelIdeal.FfnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.FfnRef.result_eq, (hagree c).1, (hagree c).2.1,
    (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
